-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x32x128 : Shape := ⟨4, ![4, 4096, 32, 128]⟩
abbrev S4096x64 : Shape := ⟨2, ![4096, 64]⟩
abbrev S_ : Shape := ⟨0, ![]⟩

class Facts : Prop where
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4x4096x32x128 .f32) (main_arg1 : FVec F S4096x64 .f32) (main_arg2 : FVec F S4096x64 .f32) : IVec S_ 1 :=
  let main_v0 : FVec F S4x4096x32x128 .f32 := Host.absf main_arg0
  let main_cst : FVec F S_ .f32 := constant S_ .f32 0x7F800000#32
  let main_v1 : FVec F S4x4096x32x128 .f32 := broadcastInDim S4x4096x32x128 ![] bcast_S_S4x4096x32x128 main_cst
  let main_v2 : IVec S4x4096x32x128 1 := cmpf .olt main_v0 main_v1
  let main_c : IVec S_ 1 := constantI S_ 1 1#1
  let main_v3 : IVec S_ 1 := (fun x v => Host.reduce IntOp.andi x v reducesTo_S4x4096x32x128_S_d0_1_2_3 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S4x4096x32x128 : Shape := ⟨4, ![4, 4096, 32, 128]⟩
abbrev S4096x64 : Shape := ⟨2, ![4096, 64]⟩
abbrev S128 : Shape := ⟨1, ![128]⟩
abbrev S_ : Shape := ⟨0, ![]⟩
abbrev S1x128 : Shape := ⟨2, ![1, 128]⟩
abbrev S8x128 : Shape := ⟨2, ![8, 128]⟩
abbrev S4096x64x2 : Shape := ⟨3, ![4096, 64, 2]⟩
abbrev S4096x128 : Shape := ⟨2, ![4096, 128]⟩
abbrev S1x256x32x128 : Shape := ⟨4, ![1, 256, 32, 128]⟩
abbrev S256x128 : Shape := ⟨2, ![256, 128]⟩
abbrev S256x32x128 : Shape := ⟨3, ![256, 32, 128]⟩
abbrev S1x1x128 : Shape := ⟨3, ![1, 1, 128]⟩
abbrev S256x1x128 : Shape := ⟨3, ![256, 1, 128]⟩

abbrev nBuf : Space → Nat
  | .hbm => 51
  | .vmem => 9
  | .smem => 0
  | _ => 0

abbrev bufTy : (tb : Table) → Fin (tcTables nBuf tb) → BufTy
  | .hbm, ⟨0, _⟩ => ⟨S4x4096x32x128, .f32⟩
  | .hbm, ⟨1, _⟩ => ⟨S4096x64, .f32⟩
  | .hbm, ⟨2, _⟩ => ⟨S4096x64, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S_, .i1⟩
  | .hbm, ⟨20, _⟩ => ⟨S128, .i1⟩
  | .hbm, ⟨21, _⟩ => ⟨S128, .i1⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S8x128, .f32⟩
  | .hbm, ⟨43, _⟩ => ⟨S4096x64x2, .f32⟩
  | .hbm, ⟨44, _⟩ => ⟨S4096x128, .f32⟩
  | .hbm, ⟨45, _⟩ => ⟨S4096x64x2, .f32⟩
  | .hbm, ⟨46, _⟩ => ⟨S4096x128, .f32⟩
  | .hbm, ⟨47, _⟩ => ⟨S1x128, .f32⟩
  | .hbm, ⟨48, _⟩ => ⟨S4096x128, .f32⟩
  | .hbm, ⟨49, _⟩ => ⟨S4096x128, .f32⟩
  | .hbm, ⟨50, _⟩ => ⟨S4x4096x32x128, .f32⟩
  | .local _ .vmem, ⟨0, _⟩ => ⟨S1x256x32x128, .f32⟩
  | .local _ .vmem, ⟨1, _⟩ => ⟨S1x256x32x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S1x256x32x128, .f32⟩
  | .local _ .vmem, ⟨8, _⟩ => ⟨S1x256x32x128, .f32⟩
  | _, _ => ⟨S4x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S4096x64_S4096x64x2_0_1 : S4096x64.BroadcastsInDim S4096x64x2 (![0, 1] : Fin 2 → Fin S4096x64x2.rank)
  shapeCasts_S4096x64x2_S4096x128 : S4096x64x2.ShapeCasts S4096x128
  bcast_S1x128_S4096x128_0_1 : S1x128.BroadcastsInDim S4096x128 (![0, 1] : Fin 2 → Fin S4096x128.rank)
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S256x32x128 : S1x256x32x128.ShapeCasts S256x32x128
  rotates_S256x32x128_d2 : S256x32x128.Rotates 2 none
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x1x128 : S128.ShapeCasts S1x1x128
  shapeCasts_S1x1x128_S1x1x128 : S1x1x128.ShapeCasts S1x1x128
  broadcasts_S1x1x128_S256x32x128 : S1x1x128.Broadcasts S256x32x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x1x128 : S256x128.ShapeCasts S256x1x128
  broadcasts_S256x1x128_S256x32x128 : S256x1x128.Broadcasts S256x32x128
  shapeCasts_S256x32x128_S1x256x32x128 : S256x32x128.ShapeCasts S1x256x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S4x4096x32x128.size a
  hwx0_0 : ∀ i : grid0.Coords, EltTy.bits .f32 = 32 ∨ (Rect.block (s := S4x4096x32x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32x128.size a ≤ S4x4096x32x128.size a
  hwx0_4 : ∀ i : grid0.Coords, EltTy.bits .f32 = 32 ∨ (Rect.block (s := S4x4096x32x128) S1x256x32x128.size (cc0_transform_4 i) (hinb0_4 i)).WholeWords (EltTy.packing .f32)

variable [Facts₀]

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x32x128 : Shape := ⟨4, ![4, 4096, 32, 128]⟩
abbrev S4096x64 : Shape := ⟨2, ![4096, 64]⟩
abbrev S4x4096x32x64x2 : Shape := ⟨5, ![4, 4096, 32, 64, 2]⟩
abbrev S4x4096x32x64x1 : Shape := ⟨5, ![4, 4096, 32, 64, 1]⟩
abbrev S4x4096x32x64 : Shape := ⟨4, ![4, 4096, 32, 64]⟩
abbrev S1x4096x1x64 : Shape := ⟨4, ![1, 4096, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x32x128, .f32⟩
  | .hbm, ⟨1, _⟩ => ⟨S4096x64, .f32⟩
  | .hbm, ⟨2, _⟩ => ⟨S4096x64, .f32⟩
  | .hbm, ⟨3, _⟩ => ⟨S4x4096x32x64x2, .f32⟩
  | .hbm, ⟨4, _⟩ => ⟨S4x4096x32x64x1, .f32⟩
  | .hbm, ⟨5, _⟩ => ⟨S4x4096x32x64, .f32⟩
  | .hbm, ⟨6, _⟩ => ⟨S4x4096x32x64x1, .f32⟩
  | .hbm, ⟨7, _⟩ => ⟨S4x4096x32x64, .f32⟩
  | .hbm, ⟨8, _⟩ => ⟨S1x4096x1x64, .f32⟩
  | .hbm, ⟨9, _⟩ => ⟨S1x4096x1x64, .f32⟩
  | .hbm, ⟨10, _⟩ => ⟨S4x4096x32x64, .f32⟩
  | .hbm, ⟨11, _⟩ => ⟨S4x4096x32x64, .f32⟩
  | .hbm, ⟨12, _⟩ => ⟨S4x4096x32x64, .f32⟩
  | .hbm, ⟨13, _⟩ => ⟨S4x4096x32x64, .f32⟩
  | .hbm, ⟨14, _⟩ => ⟨S4x4096x32x64, .f32⟩
  | .hbm, ⟨15, _⟩ => ⟨S4x4096x32x64, .f32⟩
  | .hbm, ⟨16, _⟩ => ⟨S4x4096x32x64, .f32⟩
  | .hbm, ⟨17, _⟩ => ⟨S4x4096x32x64, .f32⟩
  | .hbm, ⟨18, _⟩ => ⟨S4x4096x32x64, .f32⟩
  | .hbm, ⟨19, _⟩ => ⟨S4x4096x32x64, .f32⟩
  | .hbm, ⟨20, _⟩ => ⟨S4x4096x32x64x1, .f32⟩
  | .hbm, ⟨21, _⟩ => ⟨S4x4096x32x64x1, .f32⟩
  | .hbm, ⟨22, _⟩ => ⟨S4x4096x32x64x2, .f32⟩
  | .hbm, ⟨23, _⟩ => ⟨S4x4096x32x128, .f32⟩
  | _, _ => ⟨S4x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  shapeCasts_S4x4096x32x128_S4x4096x32x64x2 : S4x4096x32x128.ShapeCasts S4x4096x32x64x2
  slices_S4x4096x32x64x2_S4x4096x32x64x1_0_0_0_0_0 : S4x4096x32x64x2.Slices ![0, 0, 0, 0, 0] S4x4096x32x64x1
  shapeCasts_S4x4096x32x64x1_S4x4096x32x64 : S4x4096x32x64x1.ShapeCasts S4x4096x32x64
  slices_S4x4096x32x64x2_S4x4096x32x64x1_0_0_0_0_1 : S4x4096x32x64x2.Slices ![0, 0, 0, 0, 1] S4x4096x32x64x1
  bcast_S4096x64_S1x4096x1x64_1_3 : S4096x64.BroadcastsInDim S1x4096x1x64 (![1, 3] : Fin 2 → Fin S1x4096x1x64.rank)
  bcast_S1x4096x1x64_S4x4096x32x64_0_1_2_3 : S1x4096x1x64.BroadcastsInDim S4x4096x32x64 (![0, 1, 2, 3] : Fin 4 → Fin S4x4096x32x64.rank)
  bcast_S4x4096x32x64_S4x4096x32x64x1_0_1_2_3 : S4x4096x32x64.BroadcastsInDim S4x4096x32x64x1 (![0, 1, 2, 3] : Fin 4 → Fin S4x4096x32x64x1.rank)
  concatenates_S4x4096x32x64x1_S4x4096x32x64x1_S4x4096x32x64x2_d4 : Shape.Concatenates [S4x4096x32x64x1, S4x4096x32x64x1] S4x4096x32x64x2 4
  shapeCasts_S4x4096x32x64x2_S4x4096x32x128 : S4x4096x32x64x2.ShapeCasts S4x4096x32x128

variable [Facts₀]

class Facts : Prop extends Facts₀ where

variable [Facts]
-- ==== Proof.Rotary.lean ====
/-
  The interleaved rotary embedding as ONE function of the argument arrays, index by index, and the algebra that joins its
  two spellings.

  Lanes come in pairs (2k, 2k+1). With a = x at lane 2k, b = x at lane 2k+1, c = cos at (s, k), t = sin at (s, k), the
  rotation of the pair by the angle of position s is
      lane 2k   :  a · c − b · t
      lane 2k+1 :  a · t + b · c
  (`rotaryAt`). The other spelling (`swapAt`) computes every lane d the same way,
      x[d] · c + partner[d] · (t · sign[d]),
  where the partner of an even lane is the lane after it, of an odd lane the lane before it, read off two rotations of the
  128 lanes (by 127 and by 1, which meet lane d+1 and lane d−1 modulo 128), and sign is −1 on even lanes and +1 on odd ones.
  On the extended reals the two agree with no finiteness assumption: b · (t · (−1)) = −(b · t) and u − v = u + (−v) hold for
  every extended real, as do t · 1 = t and the commutativity of +.
-/
import Idealize.ShloMosaic.PureOps.Ideal
import Idealize.ShloMosaic.PureOps.Ideal.Laws
import Idealize.ShloMosaic.Lib.ValueIdx
import Idealize.ShloMosaic.Lib.IdealHost

noncomputable section

namespace Cert.Rotary

open Idealize.ShloMosaic Idealize.ShloMosaic.ValueIdx

/-- The even lane of lane `d`'s pair. -/
def evenOf (d : Fin 128) : Fin 128 := ⟨2 * (d.val / 2), by have := d.isLt; omega⟩
/-- The odd lane of lane `d`'s pair. -/
def oddOf (d : Fin 128) : Fin 128 := ⟨2 * (d.val / 2) + 1, by have := d.isLt; omega⟩
/-- The number of lane `d`'s pair: the column of the cos / sin tables it reads. -/
def pairOf (d : Fin 128) : Fin 64 := ⟨d.val / 2, by have := d.isLt; omega⟩
/-- The lane after `d`, around the end: what a rotation by 127 of the 128 lanes brings to lane `d`. -/
def nextLane (d : Fin 128) : Fin 128 := ⟨(d.val + 128 - 127 % 128) % 128, Nat.mod_lt _ (by decide)⟩
/-- The lane before `d`, around the end: what a rotation by 1 brings to lane `d`. -/
def prevLane (d : Fin 128) : Fin 128 := ⟨(d.val + 128 - 1 % 128) % 128, Nat.mod_lt _ (by decide)⟩

theorem nextLane_of_even {d : Fin 128} (h : d.val % 2 = 0) : nextLane d = oddOf d :=
  Fin.ext (by have := d.isLt; show (d.val + 128 - 127 % 128) % 128 = 2 * (d.val / 2) + 1; omega)
theorem evenOf_of_even {d : Fin 128} (h : d.val % 2 = 0) : evenOf d = d :=
  Fin.ext (by show 2 * (d.val / 2) = d.val; omega)
theorem prevLane_of_odd {d : Fin 128} (h : ¬ d.val % 2 = 0) : prevLane d = evenOf d :=
  Fin.ext (by have := d.isLt; show (d.val + 128 - 1 % 128) % 128 = 2 * (d.val / 2); omega)
theorem oddOf_of_odd {d : Fin 128} (h : ¬ d.val % 2 = 0) : oddOf d = d :=
  Fin.ext (by show 2 * (d.val / 2) + 1 = d.val; omega)

/-- The rotation of each pair of lanes by its position's angle, at batch `b`, position `s`, head `h`, lane `d`. -/
def rotaryAt (x : (⟨4, ![4, 4096, 32, 128]⟩ : Shape).Idx → EReal) (cs sn : (⟨2, ![4096, 64]⟩ : Shape).Idx → EReal)
    (b : Fin 4) (s : Fin 4096) (h : Fin 32) (d : Fin 128) : EReal :=
  if d.val % 2 = 0 then
    x (ix4 b s h (evenOf d)) * cs (ix2 s (pairOf d)) - x (ix4 b s h (oddOf d)) * sn (ix2 s (pairOf d))
  else
    x (ix4 b s h (evenOf d)) * sn (ix2 s (pairOf d)) + x (ix4 b s h (oddOf d)) * cs (ix2 s (pairOf d))

/-- The whole result array. -/
def rotary (x : (⟨4, ![4, 4096, 32, 128]⟩ : Shape).Idx → EReal) (cs sn : (⟨2, ![4096, 64]⟩ : Shape).Idx → EReal) :
    (⟨4, ![4, 4096, 32, 128]⟩ : Shape).Idx → EReal :=
  fun i => rotaryAt x cs sn (i 0) (i 1) (i 2) (i 3)

theorem rotary_ix4 (x : (⟨4, ![4, 4096, 32, 128]⟩ : Shape).Idx → EReal) (cs sn : (⟨2, ![4096, 64]⟩ : Shape).Idx → EReal)
    (b : Fin 4) (s : Fin 4096) (h : Fin 32) (d : Fin 128) : rotary x cs sn (ix4 b s h d) = rotaryAt x cs sn b s h d := rfl

/-- The same value spelt lane by lane: the lane itself times cos, plus its partner times the signed sin; the partner chosen
    by a mask that is one on even lanes and zero on odd ones, compared with one half. -/
def swapAt (x : (⟨4, ![4, 4096, 32, 128]⟩ : Shape).Idx → EReal) (cs sn : (⟨2, ![4096, 64]⟩ : Shape).Idx → EReal)
    (b : Fin 4) (s : Fin 4096) (h : Fin 32) (d : Fin 128) : EReal :=
  x (ix4 b s h d) * cs (ix2 s (pairOf d))
    + (if d.val % 2 = 0 then x (ix4 b s h (nextLane d)) else x (ix4 b s h (prevLane d)))
      * (sn (ix2 s (pairOf d)) * (if d.val % 2 = 0 then (-1 : EReal) else 1))

/-- An even lane's spelling: a product with minus one is the negative, and adding a negative is subtracting. -/
theorem even_law (a b c t : EReal) : a * c + b * (t * (-1 : EReal)) = a * c - b * t := by
  rw [mul_neg, mul_one, mul_neg, sub_eq_add_neg]

/-- An odd lane's spelling: a product with one, and the sum the other way round. -/
theorem odd_law (a b c t : EReal) : b * c + a * (t * 1) = a * t + b * c := by
  rw [mul_one, add_comm]

/-- The two spellings agree at every index, for all extended reals. -/
theorem swapAt_eq_rotaryAt (x : (⟨4, ![4, 4096, 32, 128]⟩ : Shape).Idx → EReal) (cs sn : (⟨2, ![4096, 64]⟩ : Shape).Idx → EReal)
    (b : Fin 4) (s : Fin 4096) (h : Fin 32) (d : Fin 128) : swapAt x cs sn b s h d = rotaryAt x cs sn b s h d := by
  unfold swapAt rotaryAt
  by_cases hd : d.val % 2 = 0
  · rw [if_pos hd, if_pos hd, if_pos hd, nextLane_of_even hd]
    have e : x (ix4 b s h d) = x (ix4 b s h (evenOf d)) := by rw [evenOf_of_even hd]
    rw [e]
    exact even_law _ _ _ _
  · rw [if_neg hd, if_neg hd, if_neg hd, prevLane_of_odd hd]
    have e : x (ix4 b s h d) = x (ix4 b s h (oddOf d)) := by rw [oddOf_of_odd hd]
    rw [e]
    exact odd_law _ _ _ _

/-! ## The four float literals the programs use, as extended reals -/

/-- The f32 pattern of `-1.0`. -/
theorem ofBits_neg_one_f32 : Ideal.ofBits .f32 0xBF800000#32 = (-1 : EReal) := by
  rw [show (-1 : EReal) = ((-(1 : ℝ)) : EReal) by rw [EReal.coe_one]]
  simp [Ideal.ofBits, Ideal.ieee, -EReal.coe_mul, -EReal.coe_neg]; norm_num

/-- The f32 pattern of `0.5`. -/
theorem ofBits_half_f32 : Ideal.ofBits .f32 0x3F000000#32 = (((1 : ℝ) / 2 : ℝ) : EReal) := by
  simp [Ideal.ofBits, Ideal.ieee, -EReal.coe_mul]; norm_num

/-- The mask's one is above one half, -/
theorem half_lt_one : Ideal.ofBits .f32 0x3F000000#32 < Ideal.ofBits .f32 0x3F800000#32 := by
  rw [ofBits_half_f32, Ideal.ofBits_one_f32, show (1 : EReal) = ((1 : ℝ) : EReal) by norm_cast]
  exact EReal.coe_lt_coe_iff.mpr (by norm_num)

/-- and its zero is not. -/
theorem not_half_lt_zero : ¬ Ideal.ofBits .f32 0x3F000000#32 < Ideal.ofBits .f32 0x00000000#32 := by
  rw [ofBits_half_f32, Ideal.ofBits_zero_f32, show (0 : EReal) = ((0 : ℝ) : EReal) by norm_cast]
  exact fun h => absurd (EReal.coe_lt_coe_iff.mp h) (by norm_num)

end Cert.Rotary

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.BodyValue.lean ====
/-
  What the kernel body stores, at an index of its block.

  The body holds one block of x ([1, 256, 32, 128]: 256 positions, 32 heads, 128 lanes), the matching 256 rows of the two
  lane-wide tables (the cos table with each column repeated twice, the sin table likewise and already multiplied by the
  lane's sign), and a row of the parity mask. At position r, head h, lane d it stores
      x[r, h, d] · cosf[r, d] + partner · sins[r, d],
  where partner is x[r, h, d + 1] (the lanes rotated by 127) when the mask at lane d exceeds one half and x[r, h, d − 1]
  (the lanes rotated by 1) otherwise, both lane numbers modulo 128. The tables do not depend on the head: they are cast to
  [256, 1, 128] and broadcast along the head axis. The mask row depends on the lane only.
-/
import proofs.«115505_j63591285784838_2_alg».proof.Proof.Gen.KernelIdeal.Skeleton
import proofs.«115505_j63591285784838_2_alg».proof.Proof.Rotary
import proofs.«115505_j63591285784838_2_alg».proof.Proof.LibUnitAxes
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.BodyValue

open Idealize.ShloMosaic Idealize.ShloMosaic.ValueIdx Idealize.ShloMosaic.UnitAxes Cert.KernelIdeal Cert.KernelIdeal.Gen Cert.Rotary

variable {α : Type}

/-- The lanes rotated by 127 bring lane d + 1 (around the end) to lane d. -/
theorem rot_next (v : S256x32x128.Idx → α) (hR : S256x32x128.Rotates 2 none) (r : Fin 256) (h : Fin 32) (d : Fin 128) :
    dynamicRotate 2 127#32 none v hR (ix3 r h d) = v (ix3 r h (nextLane d)) := by
  refine dynamicRotate_apply (2 : Fin 3) 127#32 v hR (ix3 r h d) (ix3 r h (nextLane d)) fun b => ?_
  match b with
  | ⟨0, _⟩ => rfl
  | ⟨1, _⟩ => rfl
  | ⟨2, _⟩ => rfl

/-- The lanes rotated by 1 bring lane d − 1 (around the end) to lane d. -/
theorem rot_prev (v : S256x32x128.Idx → α) (hR : S256x32x128.Rotates 2 none) (r : Fin 256) (h : Fin 32) (d : Fin 128) :
    dynamicRotate 2 1#32 none v hR (ix3 r h d) = v (ix3 r h (prevLane d)) := by
  refine dynamicRotate_apply (2 : Fin 3) 1#32 v hR (ix3 r h d) (ix3 r h (prevLane d)) fun b => ?_
  match b with
  | ⟨0, _⟩ => rfl
  | ⟨1, _⟩ => rfl
  | ⟨2, _⟩ => rfl

/-- The mask row, a [1, 128] vector cast to [128], to [1, 1, 128] and broadcast over positions and heads, reads its lane. -/
theorem mask_row (mk : S1x128.Idx → α) (h1 : S1x128.ShapeCasts S128) (h2 : S128.ShapeCasts S1x1x128) (h3 : S1x1x128.ShapeCasts S1x1x128)
    (h4 : S1x1x128.Broadcasts S256x32x128) (r : Fin 256) (h : Fin 32) (d : Fin 128) :
    broadcastTo S256x32x128 (shapeCast S1x1x128 (shapeCast S1x1x128 (shapeCast S128 mk h1) h2) h3) h4 (ix3 r h d) = mk (ix2 (0 : Fin 1) d) := by
  rw [shapeCast_self]
  refine (broadcastTo_apply _ h4 (ix3 r h d) (ix3 (0 : Fin 1) (0 : Fin 1) d) fun a => ?_).trans ?_
  · match a with
    | ⟨0, _⟩ => rfl
    | ⟨1, _⟩ => rfl
    | ⟨2, _⟩ => rfl
  · refine (shapeCast_apply _ h2 (ix3 (0 : Fin 1) (0 : Fin 1) d) (ix1 d) ?_).trans ?_
    · rw [Shape.rowMajor_val_three, Shape.rowMajor_val_one]
      show d.val = (0 * 1 + 0) * 128 + d.val
      omega
    · exact shapeCast_1a_a_apply mk h1 d

/-- The stored value at (r, h, d), the partner still chosen by the comparison of the mask entry with one half. -/
theorem body_at (x0 : Vec Ideal S1x256x32x128 .f32) (mk : Vec Ideal S1x128 .f32) (cb sb : Vec Ideal S256x128 .f32)
    (r : Fin 256) (h : Fin 32) (d : Fin 128) :
    k0_pay1 (F := Ideal) x0 mk cb sb (ix4 (0 : Fin 1) r h d)
      = x0 (ix4 (0 : Fin 1) r h d) * cb (ix2 r d)
        + Scalar.select (Ideal.cmp .ogt (mk (ix2 (0 : Fin 1) d)) (Ideal.ofBits .f32 0x3F000000#32))
            (x0 (ix4 (0 : Fin 1) r h (nextLane d))) (x0 (ix4 (0 : Fin 1) r h (prevLane d))) * sb (ix2 r d) := by
  unfold k0_pay1
  dsimp only
  refine (shapeCast_abc_1abc_apply _ _ (0 : Fin 1) r h d).trans ?_
  rw [addf_apply, mulf_apply, mulf_apply, select_apply, cmpf_apply, broadcast_apply, rot_next, rot_prev, mask_row,
    along_middle, along_middle, shapeCast_self, shapeCast_self]
  simp only [shapeCast_1abc_abc_apply]
  rfl

/-- A mask entry of one is above one half: the comparison's bit is set, and the select takes its first branch. -/
theorem pick_of_one (a b : α) :
    Scalar.select (Ideal.cmp .ogt (Ideal.ofBits .f32 0x3F800000#32) (Ideal.ofBits .f32 0x3F000000#32)) a b = a := by
  have e : Ideal.cmp .ogt (Ideal.ofBits .f32 0x3F800000#32) (Ideal.ofBits .f32 0x3F000000#32) = 1#1 := by
    show BitVec.ofBool (decide (Ideal.ofBits .f32 0x3F000000#32 < Ideal.ofBits .f32 0x3F800000#32)) = 1#1
    rw [decide_eq_true half_lt_one]; rfl
  rw [e]; exact select_one a b

/-- A mask entry of zero is not: the bit is clear, and the select takes its second branch. -/
theorem pick_of_zero (a b : α) :
    Scalar.select (Ideal.cmp .ogt (Ideal.ofBits .f32 0x00000000#32) (Ideal.ofBits .f32 0x3F000000#32)) a b = b := by
  have e : Ideal.cmp .ogt (Ideal.ofBits .f32 0x00000000#32) (Ideal.ofBits .f32 0x3F000000#32) = 0#1 := by
    show BitVec.ofBool (decide (Ideal.ofBits .f32 0x3F000000#32 < Ideal.ofBits .f32 0x00000000#32)) = 0#1
    rw [decide_eq_false not_half_lt_zero]; rfl
  rw [e]; exact select_zero a b

/-- Where the mask is one the partner is the next lane. -/
theorem body_of_mask_one (x0 : Vec Ideal S1x256x32x128 .f32) (mk : Vec Ideal S1x128 .f32) (cb sb : Vec Ideal S256x128 .f32)
    (r : Fin 256) (h : Fin 32) (d : Fin 128) (hm : mk (ix2 (0 : Fin 1) d) = Ideal.ofBits .f32 0x3F800000#32) :
    k0_pay1 (F := Ideal) x0 mk cb sb (ix4 (0 : Fin 1) r h d)
      = x0 (ix4 (0 : Fin 1) r h d) * cb (ix2 r d) + x0 (ix4 (0 : Fin 1) r h (nextLane d)) * sb (ix2 r d) := by
  rw [body_at, hm, pick_of_one]

/-- Where the mask is zero the partner is the previous lane. -/
theorem body_of_mask_zero (x0 : Vec Ideal S1x256x32x128 .f32) (mk : Vec Ideal S1x128 .f32) (cb sb : Vec Ideal S256x128 .f32)
    (r : Fin 256) (h : Fin 32) (d : Fin 128) (hm : mk (ix2 (0 : Fin 1) d) = Ideal.ofBits .f32 0x00000000#32) :
    k0_pay1 (F := Ideal) x0 mk cb sb (ix4 (0 : Fin 1) r h d)
      = x0 (ix4 (0 : Fin 1) r h d) * cb (ix2 r d) + x0 (ix4 (0 : Fin 1) r h (prevLane d)) * sb (ix2 r d) := by
  rw [body_at, hm, pick_of_zero]

end Cert.KernelIdeal.BodyValue

end
-- ==== Proof.LaneParity.lean ====
/-
  The parity of a lane number, as the host program computes it.

  The host program needs, per lane d of 128, whether d is even. It takes the lane numbers (an iota), their remainder by 2
  in the floor convention — the truncating remainder, plus the divisor when the remainder is not zero and its sign differs from
  the divisor's — and compares the result with zero. (The divisor is first replaced by one if it is zero; it is two.) For a lane
  number between 0 and 127 the truncating remainder by 2 is already d mod 2 and no correction applies, so the bit is set exactly
  on the even lanes. The chain is pointwise, so at lane d it is a computation on the one word that holds d; the 128 cases are
  decided.
-/
import Idealize.ShloMosaic.PureOps.Vector
import Idealize.ShloMosaic.PureOps.ShapeOps
import Idealize.ShloMosaic.Lib.ValueIdx

noncomputable section

namespace Cert.LaneParity

open Idealize.ShloMosaic Idealize.ShloMosaic.ValueIdx

/-- The lanes. -/
abbrev Lanes : Shape := ⟨1, ![128]⟩
/-- A scalar's shape. -/
abbrev Unit0 : Shape := ⟨0, ![]⟩

/-- The floor-convention remainder of the words `x` by the scalar word `c`, operation by operation as the host program
    spells it. -/
def remainderOf (h0 : Unit0.BroadcastsInDim Lanes ![]) (x : Lanes.Idx → BitVec 32) (c : Unit0.Idx → BitVec 32) : Lanes.Idx → BitVec 32 :=
  select
    (andi
      (cmpi .ne
        (cmpi .slt
          (Host.remsi x (broadcastInDim Lanes ![] h0 (select (cmpi .eq (id c) (constantI Unit0 32 0#32)) (constantI Unit0 32 1#32) (id c))))
          (broadcastInDim Lanes ![] h0 (constantI Unit0 32 0#32)))
        (broadcastInDim Lanes ![] h0
          (cmpi .slt (select (cmpi .eq (id c) (constantI Unit0 32 0#32)) (constantI Unit0 32 1#32) (id c)) (constantI Unit0 32 0#32))))
      (cmpi .ne
        (Host.remsi x (broadcastInDim Lanes ![] h0 (select (cmpi .eq (id c) (constantI Unit0 32 0#32)) (constantI Unit0 32 1#32) (id c))))
        (broadcastInDim Lanes ![] h0 (constantI Unit0 32 0#32))))
    (addi
      (Host.remsi x (broadcastInDim Lanes ![] h0 (select (cmpi .eq (id c) (constantI Unit0 32 0#32)) (constantI Unit0 32 1#32) (id c))))
      (broadcastInDim Lanes ![] h0 (select (cmpi .eq (id c) (constantI Unit0 32 0#32)) (constantI Unit0 32 1#32) (id c))))
    (Host.remsi x (broadcastInDim Lanes ![] h0 (select (cmpi .eq (id c) (constantI Unit0 32 0#32)) (constantI Unit0 32 1#32) (id c))))

/-- The same chain on one word, the divisor two. -/
def remainderWord (x : BitVec 32) : BitVec 32 :=
  Scalar.select
    (IntOp.andi
      (IntOp.cmpi .ne
        (IntOp.cmpi .slt (IntOp.remsi .host x (Scalar.select (IntOp.cmpi .eq 2#32 0#32) 1#32 2#32)) 0#32)
        (IntOp.cmpi .slt (Scalar.select (IntOp.cmpi .eq 2#32 0#32) 1#32 2#32) 0#32))
      (IntOp.cmpi .ne (IntOp.remsi .host x (Scalar.select (IntOp.cmpi .eq 2#32 0#32) 1#32 2#32)) 0#32))
    (IntOp.addi (IntOp.remsi .host x (Scalar.select (IntOp.cmpi .eq 2#32 0#32) 1#32 2#32)) (Scalar.select (IntOp.cmpi .eq 2#32 0#32) 1#32 2#32))
    (IntOp.remsi .host x (Scalar.select (IntOp.cmpi .eq 2#32 0#32) 1#32 2#32))

/-- For the 128 lane numbers the remainder's comparison with zero is the lane's evenness (decided lane by lane). -/
theorem evenWord_lane : ∀ d : Fin 128,
    IntOp.cmpi .eq (remainderWord (BitVec.ofNat 32 d.val)) 0#32 = if d.val % 2 = 0 then 1#1 else 0#1 := by
  decide +kernel

/-- The bits "lane d is even", as the host program computes them from the lane numbers and the constant two. -/
def evenBits (h0 : Unit0.BroadcastsInDim Lanes ![]) (x : Lanes.Idx → BitVec 32) (c : Unit0.Idx → BitVec 32) : Lanes.Idx → BitVec 1 :=
  cmpi .eq (remainderOf h0 x c) (broadcastInDim Lanes ![] h0 (constantI Unit0 32 0#32))

/-- At lane d the bit is set exactly when d is even. -/
theorem evenBits_at (h0 : Unit0.BroadcastsInDim Lanes ![]) (d : Fin 128) :
    evenBits h0 (iotaInDim Lanes 32 0) (constantI Unit0 32 2#32) (ix1 d) = if d.val % 2 = 0 then 1#1 else 0#1 :=
  (rfl : evenBits h0 (iotaInDim Lanes 32 0) (constantI Unit0 32 2#32) (ix1 d)
      = IntOp.cmpi .eq (remainderWord (BitVec.ofNat 32 d.val)) 0#32).trans (evenWord_lane d)

end Cert.LaneParity

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.HostTables.lean ====
/-
  The three arrays the host program builds for the kernel, read at an index.

  Before the kernel is launched the host program builds, from the cos and sin tables ([4096, 64]):
    • the cos table with every column repeated twice ([4096, 64] broadcast to [4096, 64, 2], reshaped to [4096, 128]): entry
      (s, d) is cos[s, d / 2];
    • the sin table repeated the same way and multiplied by the lane's sign, −1 on even lanes and +1 on odd ones: entry (s, d) is
      sin[s, d / 2] · sign[d];
    • the parity mask ([8, 128]): one on even lanes, zero on odd ones, the same in every row.
  The sign and the mask are selects on the bit "lane d is even". The host program is a sequence of stretches of operations; what
  the buffers hold after the whole sequence is what they hold after the last stretch run from what they held before it, and so
  on back to the launch contents, so each stretch is read on its own, from arbitrary contents.
-/
import proofs.«115505_j63591285784838_2_alg».proof.Proof.Gen.KernelIdeal.Frame
import proofs.«115505_j63591285784838_2_alg».proof.Proof.Rotary
import proofs.«115505_j63591285784838_2_alg».proof.Proof.LaneParity
import proofs.«115505_j63591285784838_2_alg».proof.Proof.LibTypedRef
import Idealize.ShloMosaic.Lib.StableHlo.Run
import Idealize.ShloMosaic.Lib.ValueIdx
import Idealize.ShloMosaic.Lib.Pipeline.Value

noncomputable section

namespace Cert.KernelIdeal.HostTables

open Idealize.ShloMosaic Idealize.ShloMosaic.TcCoe Idealize.ShloMosaic.ValueIdx Idealize.ShloMosaic.StableHlo
open Cert.KernelIdeal Cert.KernelIdeal.Gen Cert.Rotary Cert.LaneParity

/-! ## Each stretch, from arbitrary contents -/

section Stretches

variable (W : Valuation τ sig (Elt Ideal))

/-- Stretch 0: the lane numbers, and the constant two. -/
theorem s0_iota : @Eq (S128.Idx → BitVec 32) (after (hostOps0 (F := Ideal)) W (Proc.devRef .tc main_v0)) (iotaInDim S128 32 0) := by
  after_results
theorem s0_two : @Eq (S_.Idx → BitVec 32) (after (hostOps0 (F := Ideal)) W (Proc.devRef .tc main_c)) (constantI S_ 32 2#32) := by
  after_results

set_option maxHeartbeats 2000000 in
/-- Stretch 1: the floor-convention remainder of the lane numbers. -/
theorem s1_rem (h0 : S_.BroadcastsInDim S128 ![]) :
    @Eq (S128.Idx → BitVec 32) (after (hostOps0_1 (F := Ideal)) W (Proc.devRef .tc main_v1))
      (remainderOf h0 (W (Proc.devRef .tc main_v0)) (W (Proc.devRef .tc main_c))) := by
  after_results
  simp only [Cert.Lib.TypedRef.ofBuf_toBuf]
  rfl

/-- Stretch 2: the remainder compared with zero, and the two sign constants. -/
theorem s2_bit (h0 : S_.BroadcastsInDim S128 ![]) :
    @Eq (S128.Idx → BitVec 1) (after (hostOps0_2 (F := Ideal)) W (Proc.devRef .tc main_v3))
      (cmpi .eq (W (Proc.devRef .tc main_v1)) (broadcastInDim S128 ![] h0 (constantI S_ 32 0#32))) := by
  after_results
theorem s2_neg_one : @Eq (S_.Idx → EReal) (after (hostOps0_2 (F := Ideal)) W (Proc.devRef .tc main_cst))
    (constant (F := Ideal) S_ .f32 0xBF800000#32) := by
  after_results
theorem s2_one : @Eq (S_.Idx → EReal) (after (hostOps0_2 (F := Ideal)) W (Proc.devRef .tc main_cst_1))
    (constant (F := Ideal) S_ .f32 0x3F800000#32) := by
  after_results

/-- Stretch 3: the sign, a select on the evenness bits; the bits stay. -/
theorem s3_sign (h0 : S_.BroadcastsInDim S128 ![]) :
    @Eq (S128.Idx → EReal) (after (hostOps0_3 (F := Ideal)) W (Proc.devRef .tc main_v4))
      (select (W (Proc.devRef .tc main_v3)) (broadcastInDim S128 ![] h0 (W (Proc.devRef .tc main_cst)))
        (broadcastInDim S128 ![] h0 (W (Proc.devRef .tc main_cst_1)))) := by
  after_results
  simp only [Cert.Lib.TypedRef.ofBuf_toBuf]
  rfl
theorem s3_keep_bits : after (hostOps0_3 (F := Ideal)) W (Proc.devRef .tc main_v3) = W (Proc.devRef .tc main_v3) := by
  after_results

/-- Stretch 4: the sign passed on, the mask's two constants; the bits stay. -/
theorem s4_sign : @Eq (S128.Idx → EReal) (after (hostOps0_4 (F := Ideal)) W (Proc.devRef .tc main_v5)) (W (Proc.devRef .tc main_v4)) := by
  after_results
  rfl
theorem s4_one : @Eq (S_.Idx → EReal) (after (hostOps0_4 (F := Ideal)) W (Proc.devRef .tc main_cst_2))
    (constant (F := Ideal) S_ .f32 0x3F800000#32) := by
  after_results
theorem s4_zero : @Eq (S_.Idx → EReal) (after (hostOps0_4 (F := Ideal)) W (Proc.devRef .tc main_cst_3))
    (constant (F := Ideal) S_ .f32 0x00000000#32) := by
  after_results
theorem s4_keep_bits : after (hostOps0_4 (F := Ideal)) W (Proc.devRef .tc main_v3) = W (Proc.devRef .tc main_v3) := by
  after_results

/-- Stretch 5: the mask's lanes, a select on the evenness bits; the sign stays. -/
theorem s5_mask (h0 : S_.BroadcastsInDim S128 ![]) :
    @Eq (S128.Idx → EReal) (after (hostOps0_5 (F := Ideal)) W (Proc.devRef .tc main_v6))
      (select (W (Proc.devRef .tc main_v3)) (broadcastInDim S128 ![] h0 (W (Proc.devRef .tc main_cst_2)))
        (broadcastInDim S128 ![] h0 (W (Proc.devRef .tc main_cst_3)))) := by
  after_results
  simp only [Cert.Lib.TypedRef.ofBuf_toBuf]
  rfl
theorem s5_keep_sign : after (hostOps0_5 (F := Ideal)) W (Proc.devRef .tc main_v5) = W (Proc.devRef .tc main_v5) := by
  after_results

/-- Stretch 6: the three arrays, from the tables, the sign and the mask's lanes; the two tables stay. -/
theorem s6_cos (hb : S4096x64.BroadcastsInDim S4096x64x2 ![0, 1]) (hs : S4096x64x2.ShapeCasts S4096x128) :
    @Eq (S4096x128.Idx → EReal) (after (hostOps0_6 (F := Ideal)) W (Proc.devRef .tc main_v11))
      (shapeCast S4096x128 (broadcastInDim S4096x64x2 ![0, 1] hb (W (Proc.devRef .tc main_arg1))) hs) := by
  after_results
  rfl
theorem s6_sin (hb : S4096x64.BroadcastsInDim S4096x64x2 ![0, 1]) (hs : S4096x64x2.ShapeCasts S4096x128)
    (h1 : S128.BroadcastsInDim S1x128 ![1]) (h2 : S1x128.BroadcastsInDim S4096x128 ![0, 1]) :
    @Eq (S4096x128.Idx → EReal) (after (hostOps0_6 (F := Ideal)) W (Proc.devRef .tc main_v16))
      (mulf (F := Ideal) (φ := .f32) (shapeCast S4096x128 (broadcastInDim S4096x64x2 ![0, 1] hb (W (Proc.devRef .tc main_arg2))) hs)
        (broadcastInDim S4096x128 ![0, 1] h2 (broadcastInDim S1x128 ![1] h1 (W (Proc.devRef .tc main_v5))))) := by
  after_results
  rfl
theorem s6_mask (h1 : S128.BroadcastsInDim S1x128 ![1]) (h3 : S1x128.BroadcastsInDim S8x128 ![0, 1]) :
    @Eq (S8x128.Idx → EReal) (after (hostOps0_6 (F := Ideal)) W (Proc.devRef .tc main_v9))
      (broadcastInDim S8x128 ![0, 1] h3 (broadcastInDim S1x128 ![1] h1 (W (Proc.devRef .tc main_v6)))) := by
  after_results
  rfl
theorem s6_keep_cos : after (hostOps0_6 (F := Ideal)) W (Proc.devRef .tc main_arg1) = W (Proc.devRef .tc main_arg1) := by
  after_results
theorem s6_keep_sin : after (hostOps0_6 (F := Ideal)) W (Proc.devRef .tc main_arg2) = W (Proc.devRef .tc main_arg2) := by
  after_results

end Stretches

end Cert.KernelIdeal.HostTables

end
-- ==== Proof.TablesAt.lean ====
/-
  The kernel's three host-built operands at an index: cosf[s, d] = cos[s, d / 2]; sins[s, d] = sin[s, d / 2] · (−1 on even lanes,
  +1 on odd ones); mask[q, d] = 1 on even lanes, 0 on odd ones.

  The stretches of the host program are composed (what the buffers hold when the kernel starts is the last stretch run from what
  the first six leave), the evenness bits are followed from where they are computed to the two selects that use them, and each
  broadcast and reshape is read at an index: a scalar broadcast to the lanes reads the scalar; a row of lanes broadcast down the
  rows reads the lane; a [4096, 64] table broadcast to [4096, 64, 2] and reshaped to [4096, 128] reads, at (s, d), entry
  (s, d / 2), because (s · 64 + d / 2) · 2 + d mod 2 = s · 128 + d.
-/
import proofs.«115505_j63591285784838_2_alg».proof.Proof.HostTables

noncomputable section

namespace Cert.KernelIdeal.TablesAt

open Idealize.ShloMosaic Idealize.ShloMosaic.TcCoe Idealize.ShloMosaic.ValueIdx Idealize.ShloMosaic.StableHlo
open Cert.KernelIdeal Cert.KernelIdeal.Gen Cert.Rotary Cert.LaneParity Cert.KernelIdeal.HostTables

/-! ## Broadcasts and the repeat-twice reshape, read at an index -/

section Layout
variable {α : Type}

/-- A scalar broadcast to the lanes reads the scalar. -/
theorem lanes_of_scalar (h0 : S_.BroadcastsInDim S128 ![]) (x : S_.Idx → α) (d : Fin 128) :
    broadcastInDim S128 ![] h0 x (ix1 d) = x ix0 :=
  broadcastInDim_apply _ h0 x (ix1 d) ix0 (fun a => a.elim0)

/-- The lanes as one row read the lane. -/
theorem row_of_lanes (h1 : S128.BroadcastsInDim S1x128 ![1]) (x : S128.Idx → α) (u : Fin 1) (d : Fin 128) :
    broadcastInDim S1x128 ![1] h1 x (ix2 u d) = x (ix1 d) := by
  refine broadcastInDim_apply _ h1 x (ix2 u d) (ix1 d) fun a => ?_
  match a with
  | ⟨0, _⟩ => show d.val = if 128 = 1 then 0 else d.val; exact (if_neg (by decide : ¬ (128 = 1))).symm

/-- One row broadcast down 4096 rows reads the row. -/
theorem rows4096_of_row (h2 : S1x128.BroadcastsInDim S4096x128 ![0, 1]) (x : S1x128.Idx → α) (s : Fin 4096) (d : Fin 128) :
    broadcastInDim S4096x128 ![0, 1] h2 x (ix2 s d) = x (ix2 (0 : Fin 1) d) := by
  refine broadcastInDim_apply _ h2 x (ix2 s d) (ix2 (0 : Fin 1) d) fun a => ?_
  match a with
  | ⟨0, _⟩ => show 0 = if 1 = 1 then 0 else s.val; exact (if_pos (rfl : 1 = 1)).symm
  | ⟨1, _⟩ => show d.val = if 128 = 1 then 0 else d.val; exact (if_neg (by decide : ¬ (128 = 1))).symm

/-- One row broadcast down 8 rows reads the row. -/
theorem rows8_of_row (h3 : S1x128.BroadcastsInDim S8x128 ![0, 1]) (x : S1x128.Idx → α) (q : Fin 8) (d : Fin 128) :
    broadcastInDim S8x128 ![0, 1] h3 x (ix2 q d) = x (ix2 (0 : Fin 1) d) := by
  refine broadcastInDim_apply _ h3 x (ix2 q d) (ix2 (0 : Fin 1) d) fun a => ?_
  match a with
  | ⟨0, _⟩ => show 0 = if 1 = 1 then 0 else q.val; exact (if_pos (rfl : 1 = 1)).symm
  | ⟨1, _⟩ => show d.val = if 128 = 1 then 0 else d.val; exact (if_neg (by decide : ¬ (128 = 1))).symm

/-- A table with every column repeated twice reads, at lane d, column d / 2. -/
theorem repeated_twice_at (hb : S4096x64.BroadcastsInDim S4096x64x2 ![0, 1]) (hs : S4096x64x2.ShapeCasts S4096x128)
    (x : S4096x64.Idx → α) (s : Fin 4096) (d : Fin 128) :
    shapeCast S4096x128 (broadcastInDim S4096x64x2 ![0, 1] hb x) hs (ix2 s d) = x (ix2 s (pairOf d)) := by
  refine (shapeCast_apply _ hs (ix2 s d) (ix3 s (pairOf d) (⟨d.val % 2, Nat.mod_lt _ (by decide)⟩ : Fin 2)) ?_).trans ?_
  · rw [Shape.rowMajor_val_three, Shape.rowMajor_val_two]
    show (s.val * 64 + d.val / 2) * 2 + d.val % 2 = s.val * 128 + d.val
    omega
  · refine broadcastInDim_apply _ hb x _ (ix2 s (pairOf d)) fun a => ?_
    match a with
    | ⟨0, _⟩ => show s.val = if 4096 = 1 then 0 else s.val; exact (if_neg (by decide : ¬ (4096 = 1))).symm
    | ⟨1, _⟩ => show d.val / 2 = if 64 = 1 then 0 else d.val / 2; exact (if_neg (by decide : ¬ (64 = 1))).symm

end Layout

/-! ## The stretches composed -/

variable (m : (ℓ : Loc nD τ sig) → Buf (Elt Ideal) ℓ)

/-- The buffers after the first three stretches (the lane numbers, their remainder, the evenness bits and the sign constants). -/
def before3 (c : Dev nD) : Valuation τ sig (Elt Ideal) :=
  after hostOps0_2 (after hostOps0_1 (after hostOps0 (fun b => m (c, b))))

/-- The buffers before the last stretch. -/
def before6 (c : Dev nD) : Valuation τ sig (Elt Ideal) :=
  after hostOps0_5 (after hostOps0_4 (after hostOps0_3 (before3 m c)))

/-- What the kernel finds is the last stretch run from there. -/
theorem V_eq (c : Dev nD) (b : Ref sig .tc) : V m c b = after hostOps0_6 (before6 m c) (Proc.devRef .tc b) := by
  unfold before6 before3
  dsimp only [V]
  simp only [List.flatten_cons, List.flatten_nil, List.append_nil, StableHlo.after_append]

/-- The evenness bits, where they are computed. -/
theorem bits3 (c : Dev nD) (h0 : S_.BroadcastsInDim S128 ![]) :
    @Eq (S128.Idx → BitVec 1) (before3 m c (Proc.devRef .tc main_v3)) (evenBits h0 (iotaInDim S128 32 0) (constantI S_ 32 2#32)) := by
  unfold before3
  rw [s2_bit _ h0, s1_rem _ h0, s0_iota, s0_two]
  rfl

/-- The cos table reaches the last stretch as launched (no stretch writes it). -/
theorem cos_kept (c : Dev nD) : before6 m c (Proc.devRef .tc main_arg1) = m ((c : Thread nD τ).loc main_arg1) :=
  (s6_keep_cos (before6 m c)).symm.trans ((V_eq m c main_arg1).symm.trans (V_main_arg1 m c))
/-- So does the sin table. -/
theorem sin_kept (c : Dev nD) : before6 m c (Proc.devRef .tc main_arg2) = m ((c : Thread nD τ).loc main_arg2) :=
  (s6_keep_sin (before6 m c)).symm.trans ((V_eq m c main_arg2).symm.trans (V_main_arg2 m c))

/-! ## The operands and the arguments, as functions of an index -/

/-- The cos table as launched. -/
def cosArg (c : Dev nD) : S4096x64.Idx → EReal := m ((c : Thread nD τ).loc main_arg1)
/-- The sin table as launched. -/
def sinArg (c : Dev nD) : S4096x64.Idx → EReal := m ((c : Thread nD τ).loc main_arg2)
/-- The kernel's second operand: the lane-wide cos table. -/
def cosFull (c : Dev nD) : S4096x128.Idx → EReal := V m c main_v11
/-- The kernel's third operand: the lane-wide signed sin table. -/
def sinSigned (c : Dev nD) : S4096x128.Idx → EReal := V m c main_v16
/-- The kernel's fourth operand: the parity mask. -/
def parityMask (c : Dev nD) : S8x128.Idx → EReal := V m c main_v9

/-- cosf[s, d] = cos[s, d / 2]. -/
theorem cosFull_at (c : Dev nD) (s : Fin 4096) (d : Fin 128) : cosFull m c (ix2 s d) = cosArg m c (ix2 s (pairOf d)) := by
  have e : cosFull m c = shapeCast S4096x128 (broadcastInDim S4096x64x2 ![0, 1] Gen.bcast_S4096x64_S4096x64x2_0_1 (cosArg m c))
      Gen.shapeCasts_S4096x64x2_S4096x128 := by
    unfold cosFull cosArg
    rw [V_eq, s6_cos _ Gen.bcast_S4096x64_S4096x64x2_0_1 Gen.shapeCasts_S4096x64x2_S4096x128, cos_kept]
  rw [e, repeated_twice_at]

/-- The sign's lanes: −1 where the lane is even, +1 where it is odd. -/
theorem sign_at (c : Dev nD) (d : Fin 128) :
    @Eq EReal ((before6 m c (Proc.devRef .tc main_v5) : S128.Idx → EReal) (ix1 d)) (if d.val % 2 = 0 then (-1 : EReal) else 1) := by
  have e : @Eq (S128.Idx → EReal) (before6 m c (Proc.devRef .tc main_v5))
      (select (evenBits Gen.bcast_S_S128 (iotaInDim S128 32 0) (constantI S_ 32 2#32))
        (broadcastInDim S128 ![] Gen.bcast_S_S128 (constant (F := Ideal) S_ .f32 0xBF800000#32))
        (broadcastInDim S128 ![] Gen.bcast_S_S128 (constant (F := Ideal) S_ .f32 0x3F800000#32))) := by
    unfold before6
    rw [s5_keep_sign, s4_sign, s3_sign _ Gen.bcast_S_S128, bits3 m c Gen.bcast_S_S128]
    unfold before3
    rw [s2_neg_one, s2_one]
  rw [e, select_apply, evenBits_at, lanes_of_scalar, lanes_of_scalar]
  by_cases hd : d.val % 2 = 0
  · rw [if_pos hd, if_pos hd]
    exact (select_one _ _).trans ofBits_neg_one_f32
  · rw [if_neg hd, if_neg hd]
    exact (select_zero _ _).trans Ideal.ofBits_one_f32

/-- sins[s, d] = sin[s, d / 2] · sign[d]. -/
theorem sinSigned_at (c : Dev nD) (s : Fin 4096) (d : Fin 128) :
    sinSigned m c (ix2 s d) = sinArg m c (ix2 s (pairOf d)) * (if d.val % 2 = 0 then (-1 : EReal) else 1) := by
  have e : sinSigned m c = mulf (F := Ideal) (φ := .f32)
      (shapeCast S4096x128 (broadcastInDim S4096x64x2 ![0, 1] Gen.bcast_S4096x64_S4096x64x2_0_1 (sinArg m c)) Gen.shapeCasts_S4096x64x2_S4096x128)
      (broadcastInDim S4096x128 ![0, 1] Gen.bcast_S1x128_S4096x128_0_1
        (broadcastInDim S1x128 ![1] Gen.bcast_S128_S1x128_1 (before6 m c (Proc.devRef .tc main_v5)))) := by
    unfold sinSigned sinArg
    rw [V_eq, s6_sin _ Gen.bcast_S4096x64_S4096x64x2_0_1 Gen.shapeCasts_S4096x64x2_S4096x128 Gen.bcast_S128_S1x128_1
      Gen.bcast_S1x128_S4096x128_0_1, sin_kept]
  rw [e, mulf_apply, repeated_twice_at, rows4096_of_row, row_of_lanes]
  exact congrArg (fun u : EReal => sinArg m c (ix2 s (pairOf d)) * u) (sign_at m c d)

/-- mask[q, d] is one where the lane is even and zero where it is odd. -/
theorem parityMask_at (c : Dev nD) (q : Fin 8) (d : Fin 128) :
    parityMask m c (ix2 q d) = if d.val % 2 = 0 then Ideal.ofBits .f32 0x3F800000#32 else Ideal.ofBits .f32 0x00000000#32 := by
  have e : parityMask m c = broadcastInDim S8x128 ![0, 1] Gen.bcast_S1x128_S8x128_0_1 (broadcastInDim S1x128 ![1] Gen.bcast_S128_S1x128_1
      (select (evenBits Gen.bcast_S_S128 (iotaInDim S128 32 0) (constantI S_ 32 2#32))
        (broadcastInDim S128 ![] Gen.bcast_S_S128 (constant (F := Ideal) S_ .f32 0x3F800000#32))
        (broadcastInDim S128 ![] Gen.bcast_S_S128 (constant (F := Ideal) S_ .f32 0x00000000#32)))) := by
    unfold parityMask
    rw [V_eq, s6_mask _ Gen.bcast_S128_S1x128_1 Gen.bcast_S1x128_S8x128_0_1]
    unfold before6
    rw [s5_mask _ Gen.bcast_S_S128, s4_keep_bits, s4_one, s4_zero, s3_keep_bits, bits3 m c Gen.bcast_S_S128]
  rw [e, rows8_of_row, row_of_lanes, select_apply, evenBits_at, lanes_of_scalar, lanes_of_scalar]
  by_cases hd : d.val % 2 = 0
  · rw [if_pos hd, if_pos hd]
    exact select_one _ _
  · rw [if_neg hd, if_neg hd]
    exact select_zero _ _

end Cert.KernelIdeal.TablesAt

end
-- ==== Proof.KernelRotary.lean ====
/-
  The kernel's result array is the rotary embedding of its arguments.

  The grid has 4 × 16 points; point (b, g) works on batch b and positions 256 g … 256 g + 255: its block of x and of the result is
  [1, 256, 32, 128] at block index (b, g, 0, 0), its blocks of the two lane-wide tables are rows 256 g … of them, and the mask's one block
  is the whole mask. So entry (0, r, h, d) of a block of x is x[b, 256 g + r, h, d], entry (r, d) of a table block is the table at
  (256 g + r, d). What the point writes back is the body's value on these blocks, which is the lane-by-lane spelling of the rotation at
  (b, 256 g + r, h, d), hence the rotation itself. The 64 blocks of the result tile the array: index (b, s, h, d) lies in the block of the
  point (b, s / 256), so after the run every entry of the array is the rotation there.
-/
import proofs.«115505_j63591285784838_2_alg».proof.Proof.Gen.KernelIdeal.Value
import proofs.«115505_j63591285784838_2_alg».proof.Proof.BodyValue
import proofs.«115505_j63591285784838_2_alg».proof.Proof.TablesAt
import proofs.«115505_j63591285784838_2_alg».proof.Proof.Rotary
import Idealize.ShloMosaic.Lib.Pipeline.Value
import Idealize.ShloMosaic.Lib.ValueIdx

noncomputable section

namespace Cert.KernelIdeal.RotaryValue

open Idealize.ShloMosaic Idealize.ShloMosaic.TcCoe Idealize.ShloMosaic.ValueIdx Idealize.SL.Sem
open Idealize.ShloMosaic.Pipeline (Dat)
open Cert.KernelIdeal Cert.KernelIdeal.Gen Cert.Rotary Cert.KernelIdeal.BodyValue Cert.KernelIdeal.TablesAt

variable (m : (ℓ : Loc nD τ sig) → Buf (Elt Ideal) ℓ) (ρ : Dev nD → PrngReg)

/-- x as launched. -/
def xArg (c : Dev nD) : S4x4096x32x128.Idx → EReal := m ((c : Thread nD τ).loc main_arg0)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The index maps over the grid: x's block moves with the result's; the tables' row block is the result's position block; the mask's
    block does not move; the result's block index is (batch, position block, 0, 0) with batch below 4 and position block below 16. -/
theorem block_indices : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_4.index t (2 : Fin 4) = 0 ∧ win0_4.index t (3 : Fin 4) = 0
    ∧ win0_1.index t (0 : Fin 2) = win0_4.index t (1 : Fin 4) ∧ win0_1.index t (1 : Fin 2) = 0
    ∧ win0_2.index t (0 : Fin 2) = win0_4.index t (1 : Fin 4) ∧ win0_2.index t (1 : Fin 2) = 0
    ∧ win0_3.index t (0 : Fin 2) = 0 ∧ win0_3.index t (1 : Fin 2) = 0
    ∧ win0_4.index t (0 : Fin 4) < 4 ∧ win0_4.index t (1 : Fin 4) < 16 :=
  (by decide +kernel : ∀ t : Fin grid0.N, _)

/-- Every (batch, position block) is some point's. -/
theorem block_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-- Entry (0, r, h, d) of the result's block at a point is the array's entry (batch, 256 · position block + r, h, d). -/
theorem out_emb (t : Fin cfg0.N) (r : Fin 256) (h : Fin 32) (d : Fin 128) (B G : Nat)
    (hB : win0_4.index t (0 : Fin 4) = B) (hG : win0_4.index t (1 : Fin 4) = G) (hB4 : B < 4) (hG16 : G < 16) :
    ((cfg0.win 4).blk t).view.emb (ix4 (0 : Fin 1) r h d)
      = ix4 (⟨B, hB4⟩ : Fin 4) (⟨G * 256 + r.val, by have := r.isLt; omega⟩ : Fin 4096) h d := by
  obtain ⟨e00, e01, e02, e03, e42, e43, e10, e11, e20, e21, e30, e31, _, _⟩ := block_indices t
  refine funext fun a => Fin.ext ?_
  match a with
  | ⟨0, _⟩ => show win0_4.index t (0 : Fin 4) * 1 + 1 * 0 = B; omega
  | ⟨1, _⟩ => show win0_4.index t (1 : Fin 4) * 256 + 1 * r.val = G * 256 + r.val; omega
  | ⟨2, _⟩ => show win0_4.index t (2 : Fin 4) * 32 + 1 * h.val = h.val; omega
  | ⟨3, _⟩ => show win0_4.index t (3 : Fin 4) * 128 + 1 * d.val = d.val; omega

/-- x's block. -/
theorem x_block (c : Dev nD) (t : Fin cfg0.N) (r : Fin 256) (h : Fin 32) (d : Fin 128) (B G : Nat)
    (hB : win0_4.index t (0 : Fin 4) = B) (hG : win0_4.index t (1 : Fin 4) = G) (hB4 : B < 4) (hG16 : G < 16) :
    iblk m c 0 t (ix4 (0 : Fin 1) r h d)
      = xArg m c (ix4 (⟨B, hB4⟩ : Fin 4) (⟨G * 256 + r.val, by have := r.isLt; omega⟩ : Fin 4096) h d) := by
  obtain ⟨e00, e01, e02, e03, e42, e43, e10, e11, e20, e21, e30, e31, _, _⟩ := block_indices t
  show V m c main_arg0 (((cfg0.win 0).blk t).view.emb (ix4 (0 : Fin 1) r h d)) = _
  rw [V_main_arg0]
  refine congrArg (xArg m c) (funext fun a => Fin.ext ?_)
  match a with
  | ⟨0, _⟩ => show win0_0.index t (0 : Fin 4) * 1 + 1 * 0 = B; omega
  | ⟨1, _⟩ => show win0_0.index t (1 : Fin 4) * 256 + 1 * r.val = G * 256 + r.val; omega
  | ⟨2, _⟩ => show win0_0.index t (2 : Fin 4) * 32 + 1 * h.val = h.val; omega
  | ⟨3, _⟩ => show win0_0.index t (3 : Fin 4) * 128 + 1 * d.val = d.val; omega

/-- The cos table's block. -/
theorem cos_block (c : Dev nD) (t : Fin cfg0.N) (r : Fin 256) (d : Fin 128) (G : Nat)
    (hG : win0_4.index t (1 : Fin 4) = G) (hG16 : G < 16) :
    iblk m c 1 t (ix2 r d) = cosFull m c (ix2 (⟨G * 256 + r.val, by have := r.isLt; omega⟩ : Fin 4096) d) := by
  obtain ⟨e00, e01, e02, e03, e42, e43, e10, e11, e20, e21, e30, e31, _, _⟩ := block_indices t
  show cosFull m c (((cfg0.win 1).blk t).view.emb (ix2 r d)) = _
  refine congrArg (cosFull m c) (funext fun a => Fin.ext ?_)
  match a with
  | ⟨0, _⟩ => show win0_1.index t (0 : Fin 2) * 256 + 1 * r.val = G * 256 + r.val; omega
  | ⟨1, _⟩ => show win0_1.index t (1 : Fin 2) * 128 + 1 * d.val = d.val; omega

/-- The signed sin table's block. -/
theorem sin_block (c : Dev nD) (t : Fin cfg0.N) (r : Fin 256) (d : Fin 128) (G : Nat)
    (hG : win0_4.index t (1 : Fin 4) = G) (hG16 : G < 16) :
    iblk m c 2 t (ix2 r d) = sinSigned m c (ix2 (⟨G * 256 + r.val, by have := r.isLt; omega⟩ : Fin 4096) d) := by
  obtain ⟨e00, e01, e02, e03, e42, e43, e10, e11, e20, e21, e30, e31, _, _⟩ := block_indices t
  show sinSigned m c (((cfg0.win 2).blk t).view.emb (ix2 r d)) = _
  refine congrArg (sinSigned m c) (funext fun a => Fin.ext ?_)
  match a with
  | ⟨0, _⟩ => show win0_2.index t (0 : Fin 2) * 256 + 1 * r.val = G * 256 + r.val; omega
  | ⟨1, _⟩ => show win0_2.index t (1 : Fin 2) * 128 + 1 * d.val = d.val; omega

/-- The mask row the body loads: row 0 of the mask's one block. -/
theorem mask_block (c : Dev nD) (t : Fin cfg0.N) (d : Fin 128) :
    View.ld (iblk m c 3 t) r0_1 (ix2 (0 : Fin 1) d) = parityMask m c (ix2 (0 : Fin 8) d) := by
  obtain ⟨e00, e01, e02, e03, e42, e43, e10, e11, e20, e21, e30, e31, _, _⟩ := block_indices t
  show parityMask m c (((cfg0.win 3).blk t).view.emb (r0_1.idx (ix2 (0 : Fin 1) d))) = _
  refine congrArg (parityMask m c) (funext fun a => Fin.ext ?_)
  match a with
  | ⟨0, _⟩ => show win0_3.index t (0 : Fin 2) * 8 + 1 * (0 + 1 * 0) = 0; omega
  | ⟨1, _⟩ => show win0_3.index t (1 : Fin 2) * 128 + 1 * (0 + 1 * d.val) = d.val; omega

/-- WHAT POINT t WRITES BACK is its block of the rotary embedding of the arguments. -/
theorem flushed_eq (c : Dev nD) (t : Fin cfg0.N) :
    (dats m 0 c).flushed 4 t
      = ((cfg0.win 4).blk t).view.read (Elt Ideal) (rotary (xArg m c) (cosArg m c) (sinArg m c)) := by
  show (cfg0.win 4).cut (grid0.coords t) ((dats m 0 c).after 4 t) = _
  rw [after0_4]
  unfold out0_4
  rw [View.canon_unit_zero zeros4]
  simp only [View.ld_unit_zero (S := S1x256x32x128) zeros4, View.ld_unit_zero (S := S256x128) zeros2]
  obtain ⟨e00, e01, e02, e03, e42, e43, e10, e11, e20, e21, e30, e31, hB4, hG16⟩ := block_indices t
  refine funext fun (j : S1x256x32x128.Idx) => ?_
  obtain ⟨u, r, h, d, rfl⟩ : ∃ (u : Fin 1) (r : Fin 256) (h : Fin 32) (d : Fin 128), j = ix4 u r h d :=
    ⟨j 0, j 1, j 2, j 3, eq_ix4 j⟩
  obtain rfl : u = 0 := Subsingleton.elim _ _
  show k0_pay1 (F := Ideal) (iblk m c 0 t) (View.ld (iblk m c 3 t) r0_1) (iblk m c 1 t) (iblk m c 2 t) (ix4 (0 : Fin 1) r h d)
    = rotary (xArg m c) (cosArg m c) (sinArg m c) (((cfg0.win 4).blk t).view.emb (ix4 (0 : Fin 1) r h d))
  rw [out_emb t r h d _ _ rfl rfl hB4 hG16, rotary_ix4, ← swapAt_eq_rotaryAt]
  unfold swapAt
  by_cases hd : d.val % 2 = 0
  · rw [body_of_mask_one _ _ _ _ r h d (by rw [mask_block, parityMask_at, if_pos hd]), if_pos hd, if_pos hd,
      x_block m c t r h d _ _ rfl rfl hB4 hG16, x_block m c t r h (nextLane d) _ _ rfl rfl hB4 hG16,
      cos_block m c t r d _ rfl hG16, sin_block m c t r d _ rfl hG16, cosFull_at, sinSigned_at, if_pos hd]
  · rw [body_of_mask_zero _ _ _ _ r h d (by rw [mask_block, parityMask_at, if_neg hd]), if_neg hd, if_neg hd,
      x_block m c t r h d _ _ rfl rfl hB4 hG16, x_block m c t r h (prevLane d) _ _ rfl rfl hB4 hG16,
      cos_block m c t r d _ rfl hG16, sin_block m c t r d _ rfl hG16, cosFull_at, sinSigned_at, if_neg hd]

/-- An index of the array is in point t's block iff each coordinate is in the block's range on its axis. -/
theorem mem_blk (t : Fin cfg0.N) (i : S4x4096x32x128.Idx) :
    i ∈ ((cfg0.win 4).blk t).view.set ↔ ∀ a : Fin 4, win0_4.index t a * S1x256x32x128.size a ≤ (i a).val
      ∧ (i a).val < win0_4.index t a * S1x256x32x128.size a + S1x256x32x128.size a := by
  show i ∈ ((View.whole main_v17).slice (win0_4.rect t)).set ↔ _
  rw [View.set_slice_whole, Rect.mem_set_unit]
  exact Iff.rfl

/-- The blocks cover the array: index (b, s, h, d) is in the block of the point (b, s / 256). -/
theorem covered (i : S4x4096x32x128.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 32 := (i 2).isLt
  have hi3 : (i 3).val < 128 := (i 3).isLt
  obtain ⟨t, ht⟩ := block_onto ⟨(i 0).val, hi0⟩ ⟨(i 1).val / 256, by omega⟩
  have q0 : win0_4.index t (0 : Fin 4) = (i 0).val := congrFun ht 0
  have q1 : win0_4.index t (1 : Fin 4) = (i 1).val / 256 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 256 ≤ (i 1).val ∧ (i 1).val < win0_4.index t (1 : Fin 4) * 256 + 256; omega
  | ⟨2, _⟩ => show win0_4.index t (2 : Fin 4) * 32 ≤ (i 2).val ∧ (i 2).val < win0_4.index t (2 : Fin 4) * 32 + 32; omega
  | ⟨3, _⟩ => show win0_4.index t (3 : Fin 4) * 128 ≤ (i 3).val ∧ (i 3).val < win0_4.index t (3 : Fin 4) * 128 + 128; omega

/-- THE RESULT ARRAY after the run: the rotary embedding of the arguments. -/
theorem final (c : Dev nD) : (dats m 0 c).arrAt 4 cfg0.N = rotary (xArg m c) (cosArg m c) (sinArg m c) :=
  (dats m 0 c).arrAt_eq_of_cover 4 (rotary (xArg m c) (cosArg m c) (sinArg m c)) (fun t _ => flushed_eq m c t)
    (fun i => covered i)

/-- The kernel's run: the result array at the rotary embedding of the arguments, the arguments unchanged. -/
theorem run : θ_run defs (onTc (τ := τ) (main (F := Ideal))) ⟨m, fun _ => 0, ρ⟩ fun r => ∀ c : Dev nD,
      r.2.mem ((c : Thread nD τ).loc main_v17) = rotary (xArg m c) (cosArg m c) (sinArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RotaryValue

end
-- ==== Proof.RefRotary.lean ====
/-
  The reference, read at an index, is the rotation of each pair of lanes.

  The reference splits the 128 lanes into 64 pairs ([.., 128] reshaped to [.., 64, 2]), takes the pairs' first and second
  entries as two arrays of 64 columns, multiplies them by the cos and sin tables (broadcast over batch and head), forms
  a · c − b · t and a · t + b · c, puts the two results back side by side along a new last axis and reshapes to 128 lanes. Each
  stage below is read at explicit coordinates (batch b, position s, head h, pair k, and p ∈ {0, 1} inside the pair); the row-major
  position of (b, s, h, k, p) in the five-axis shape and of (b, s, h, 2k + p) in the four-axis one are the same number, which is
  all a reshape needs.
-/
import proofs.«115505_j63591285784838_2_alg».proof.Proof.Gen.ReferenceIdeal.Read
import proofs.«115505_j63591285784838_2_alg».proof.Proof.Rotary
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Rotary

variable (x0 : (⟨S4x4096x32x128, .f32⟩ : BufTy).Contents (Elt Ideal))
variable (x1 x2 : (⟨S4096x64, .f32⟩ : BufTy).Contents (Elt Ideal))

/-- The lanes as pairs: entry (k, p) of the reshaped array is lane 2k + p. -/
theorem pairs_at (b : Fin 4) (s : Fin 4096) (h : Fin 32) (k : Fin 64) (p : Fin 2) :
    val_main_v0 (F := Ideal) x0 (ix5 b s h k p) = x0 (ix4 b s h ⟨2 * k.val + p.val, by have := k.isLt; have := p.isLt; omega⟩) := by
  rw [val_main_v0_apply]
  refine congrArg x0 (funext fun a => Fin.ext ?_)
  have hb := b.isLt; have hs := s.isLt; have hh := h.isLt; have hk := k.isLt; have hp := p.isLt
  match a with
  | ⟨0, _⟩ => show (((((b.val * 4096 + s.val) * 32 + h.val) * 64 + k.val) * 2 + p.val) / 16777216 = b.val); omega
  | ⟨1, _⟩ => show (((((b.val * 4096 + s.val) * 32 + h.val) * 64 + k.val) * 2 + p.val) / 4096 % 4096 = s.val); omega
  | ⟨2, _⟩ => show (((((b.val * 4096 + s.val) * 32 + h.val) * 64 + k.val) * 2 + p.val) / 128 % 32 = h.val); omega
  | ⟨3, _⟩ => show (((((b.val * 4096 + s.val) * 32 + h.val) * 64 + k.val) * 2 + p.val) % 128 = 2 * k.val + p.val); omega

/-- The pairs' first entries: the even lanes. -/
theorem first_entries_at (b : Fin 4) (s : Fin 4096) (h : Fin 32) (k : Fin 64) :
    val_main_v2 (F := Ideal) x0 (ix4 b s h k) = x0 (ix4 b s h ⟨2 * k.val + 0, by have := k.isLt; omega⟩) := by
  rw [val_main_v2_apply, val_main_v1_apply]
  have e : idx_main_v1 (idx_main_v2 (ix4 b s h k)) = ix5 b s h k (0 : Fin 2) := by
    have hb := b.isLt; have hs := s.isLt; have hh := h.isLt; have hk := k.isLt
    refine funext fun a => Fin.ext ?_
    match a with
    | ⟨0, _⟩ => show ((((b.val * 4096 + s.val) * 32 + h.val) * 64 + k.val) / 8388608 = b.val); omega
    | ⟨1, _⟩ => show ((((b.val * 4096 + s.val) * 32 + h.val) * 64 + k.val) / 2048 % 4096 = s.val); omega
    | ⟨2, _⟩ => show ((((b.val * 4096 + s.val) * 32 + h.val) * 64 + k.val) / 64 % 32 = h.val); omega
    | ⟨3, _⟩ => show ((((b.val * 4096 + s.val) * 32 + h.val) * 64 + k.val) / 1 % 64 = k.val); omega
    | ⟨4, _⟩ => rfl
  rw [e]
  exact pairs_at x0 b s h k 0

/-- The pairs' second entries: the odd lanes. -/
theorem second_entries_at (b : Fin 4) (s : Fin 4096) (h : Fin 32) (k : Fin 64) :
    val_main_v4 (F := Ideal) x0 (ix4 b s h k) = x0 (ix4 b s h ⟨2 * k.val + 1, by have := k.isLt; omega⟩) := by
  rw [val_main_v4_apply, val_main_v3_apply]
  have e : idx_main_v3 (idx_main_v4 (ix4 b s h k)) = ix5 b s h k (1 : Fin 2) := by
    have hb := b.isLt; have hs := s.isLt; have hh := h.isLt; have hk := k.isLt
    refine funext fun a => Fin.ext ?_
    match a with
    | ⟨0, _⟩ => show ((((b.val * 4096 + s.val) * 32 + h.val) * 64 + k.val) / 8388608 = b.val); omega
    | ⟨1, _⟩ => show ((((b.val * 4096 + s.val) * 32 + h.val) * 64 + k.val) / 2048 % 4096 = s.val); omega
    | ⟨2, _⟩ => show ((((b.val * 4096 + s.val) * 32 + h.val) * 64 + k.val) / 64 % 32 = h.val); omega
    | ⟨3, _⟩ => show ((((b.val * 4096 + s.val) * 32 + h.val) * 64 + k.val) / 1 % 64 = k.val); omega
    | ⟨4, _⟩ => rfl
  rw [e]
  exact pairs_at x0 b s h k 1

/-- A table broadcast over batch and head reads its entry at (position, pair): the four broadcasts of the two tables. -/
theorem cos_first_at (b : Fin 4) (s : Fin 4096) (h : Fin 32) (k : Fin 64) :
    val_main_v7 (F := Ideal) x1 (ix4 b s h k) = x1 (ix2 s k) := by
  rw [val_main_v7_apply, val_main_v5_apply]
  exact congrArg x1 (funext fun a => match a with | ⟨0, _⟩ => rfl | ⟨1, _⟩ => rfl)
theorem sin_first_at (b : Fin 4) (s : Fin 4096) (h : Fin 32) (k : Fin 64) :
    val_main_v9 (F := Ideal) x2 (ix4 b s h k) = x2 (ix2 s k) := by
  rw [val_main_v9_apply, val_main_v6_apply]
  exact congrArg x2 (funext fun a => match a with | ⟨0, _⟩ => rfl | ⟨1, _⟩ => rfl)
theorem sin_second_at (b : Fin 4) (s : Fin 4096) (h : Fin 32) (k : Fin 64) :
    val_main_v12 (F := Ideal) x2 (ix4 b s h k) = x2 (ix2 s k) := by
  rw [val_main_v12_apply, val_main_v6_apply]
  exact congrArg x2 (funext fun a => match a with | ⟨0, _⟩ => rfl | ⟨1, _⟩ => rfl)
theorem cos_second_at (b : Fin 4) (s : Fin 4096) (h : Fin 32) (k : Fin 64) :
    val_main_v14 (F := Ideal) x1 (ix4 b s h k) = x1 (ix2 s k) := by
  rw [val_main_v14_apply, val_main_v5_apply]
  exact congrArg x1 (funext fun a => match a with | ⟨0, _⟩ => rfl | ⟨1, _⟩ => rfl)

/-- The rotated pair's first component: a · c − b · t. -/
theorem rotated_first_at (b : Fin 4) (s : Fin 4096) (h : Fin 32) (k : Fin 64) :
    val_main_v11 (F := Ideal) x0 x1 x2 (ix4 b s h k)
      = x0 (ix4 b s h ⟨2 * k.val + 0, by have := k.isLt; omega⟩) * x1 (ix2 s k)
        - x0 (ix4 b s h ⟨2 * k.val + 1, by have := k.isLt; omega⟩) * x2 (ix2 s k) := by
  rw [val_main_v11_apply, val_main_v8_apply, val_main_v10_apply, first_entries_at, second_entries_at, cos_first_at, sin_first_at]
  rfl

/-- The rotated pair's second component: a · t + b · c. -/
theorem rotated_second_at (b : Fin 4) (s : Fin 4096) (h : Fin 32) (k : Fin 64) :
    val_main_v16 (F := Ideal) x0 x1 x2 (ix4 b s h k)
      = x0 (ix4 b s h ⟨2 * k.val + 0, by have := k.isLt; omega⟩) * x2 (ix2 s k)
        + x0 (ix4 b s h ⟨2 * k.val + 1, by have := k.isLt; omega⟩) * x1 (ix2 s k) := by
  rw [val_main_v16_apply, val_main_v13_apply, val_main_v15_apply, first_entries_at, second_entries_at, sin_second_at, cos_second_at]
  rfl

/-- The two components side by side along the new last axis: coordinate 0 there reads the first, coordinate 1 the second. -/
theorem joined_at (b : Fin 4) (s : Fin 4096) (h : Fin 32) (k : Fin 64) (p : Fin 2) :
    val_main_v19 (F := Ideal) x0 x1 x2 (ix5 b s h k p)
      = if p.val = 0 then val_main_v11 (F := Ideal) x0 x1 x2 (ix4 b s h k) else val_main_v16 (F := Ideal) x0 x1 x2 (ix4 b s h k) := by
  unfold val_main_v19
  have hp := p.isLt
  by_cases hp0 : p.val = 0
  · rw [if_pos hp0]
    refine (concatenate_pair_apply_left (t := S4x4096x32x64x2) (s₁ := S4x4096x32x64x1) (s₂ := S4x4096x32x64x1) _ _ _ _
      (ix5 b s h k p) rfl (ix5 b s h k (0 : Fin 1)) (fun a => ?_)).trans ?_
    · match a with
      | ⟨0, _⟩ => rfl
      | ⟨1, _⟩ => rfl
      | ⟨2, _⟩ => rfl
      | ⟨3, _⟩ => rfl
      | ⟨4, _⟩ => show 0 = p.val; omega
    · rw [val_main_v17_apply]
      exact congrArg (val_main_v11 (F := Ideal) x0 x1 x2) (funext fun a => match a with
        | ⟨0, _⟩ => rfl | ⟨1, _⟩ => rfl | ⟨2, _⟩ => rfl | ⟨3, _⟩ => rfl)
  · rw [if_neg hp0]
    refine (concatenate_pair_apply_right (t := S4x4096x32x64x2) (s₁ := S4x4096x32x64x1) (s₂ := S4x4096x32x64x1) _ _ _ _
      (ix5 b s h k p) rfl rfl (ix5 b s h k (0 : Fin 1)) (fun a hne => ?_) ?_).trans ?_
    · match a with
      | ⟨0, _⟩ => rfl
      | ⟨1, _⟩ => rfl
      | ⟨2, _⟩ => rfl
      | ⟨3, _⟩ => rfl
      | ⟨4, _⟩ => exact absurd rfl hne
    · show 0 + 1 = p.val; omega
    · rw [val_main_v18_apply]
      exact congrArg (val_main_v16 (F := Ideal) x0 x1 x2) (funext fun a => match a with
        | ⟨0, _⟩ => rfl | ⟨1, _⟩ => rfl | ⟨2, _⟩ => rfl | ⟨3, _⟩ => rfl)

/-- Back to 128 lanes: lane d is entry (d / 2, d % 2) of the pairs, so it holds the rotation of its pair. -/
theorem result_at (b : Fin 4) (s : Fin 4096) (h : Fin 32) (d : Fin 128) :
    val_main_v20 (F := Ideal) x0 x1 x2 (ix4 b s h d) = rotaryAt x0 x1 x2 b s h d := by
  rw [val_main_v20_apply]
  have e : idx_main_v20 (ix4 b s h d) = ix5 b s h (pairOf d) (⟨d.val % 2, Nat.mod_lt _ (by decide)⟩ : Fin 2) := by
    have hb := b.isLt; have hs := s.isLt; have hh := h.isLt; have hd := d.isLt
    refine funext fun a => Fin.ext ?_
    match a with
    | ⟨0, _⟩ => show ((((b.val * 4096 + s.val) * 32 + h.val) * 128 + d.val) / 16777216 = b.val); omega
    | ⟨1, _⟩ => show ((((b.val * 4096 + s.val) * 32 + h.val) * 128 + d.val) / 4096 % 4096 = s.val); omega
    | ⟨2, _⟩ => show ((((b.val * 4096 + s.val) * 32 + h.val) * 128 + d.val) / 128 % 32 = h.val); omega
    | ⟨3, _⟩ => show ((((b.val * 4096 + s.val) * 32 + h.val) * 128 + d.val) / 2 % 64 = d.val / 2); omega
    | ⟨4, _⟩ => show ((((b.val * 4096 + s.val) * 32 + h.val) * 128 + d.val) % 2 = d.val % 2); omega
  rw [e, joined_at]
  unfold rotaryAt
  by_cases hd : d.val % 2 = 0
  · rw [if_pos hd, if_pos (show (⟨d.val % 2, Nat.mod_lt _ (by decide)⟩ : Fin 2).val = 0 from hd), rotated_first_at]
    rfl
  · rw [if_neg hd, if_neg (show ¬ (⟨d.val % 2, Nat.mod_lt _ (by decide)⟩ : Fin 2).val = 0 from hd), rotated_second_at]
    rfl

/-- The reference's result array is the rotary embedding of its arguments. -/
theorem reference_is_rotary : val_main_v20 (F := Ideal) x0 x1 x2 = rotary x0 x1 x2 := by
  funext i
  obtain ⟨b, s, h, d, rfl⟩ : ∃ (b : Fin 4) (s : Fin 4096) (h : Fin 32) (d : Fin 128), i = ix4 b s h d :=
    ⟨i 0, i 1, i 2, i 3, eq_ix4 i⟩
  rw [rotary_ix4]
  exact result_at x0 x1 x2 b s h d

end Cert.ReferenceIdeal.RefValue

end
-- ==== Proof.lean ====
/-
  The interleaved (pairwise) rotary position embedding: a kernel over blocks of 256 positions against the plain array program.

  With x of shape [4, 4096, 32, 128] (batch, position, head, lane) and cos, sin of shape [4096, 64] (position, pair), the result at
  (b, s, h, ·) rotates each pair of lanes (2k, 2k+1) by the angle of (s, k):
      out[2k]   = x[2k] · cos[s, k] − x[2k+1] · sin[s, k]
      out[2k+1] = x[2k] · sin[s, k] + x[2k+1] · cos[s, k].
  The reference computes exactly this on arrays of pairs. The kernel computes every lane as x[d] · cos[s, d/2] + partner[d] · (sin[s, d/2] ·
  sign[d]), the partner being the other lane of the pair (taken from two rotations of the lanes by a parity mask) and the sign −1 on even
  lanes, +1 on odd ones; the lane-wide tables, the sign and the mask are built by the host part of the kernel's program from the lane numbers.
  On the extended reals the two spellings are one function: b · (t · (−1)) = −(b · t), u + (−v) = u − v, t · 1 = t and u + v = v + u hold for all
  extended reals, so the equality of the results needs no assumption on the inputs; the precondition is used by no step.

  The modules: Rotary (the function, the two spellings, their agreement, the four float literals), RefRotary (the reference's result is the
  function), LaneParity (the host's even-lane bits), HostTables and TablesAt (the three arrays the host builds, at an index), BodyValue (what the
  kernel body stores, at an index), KernelRotary (each grid point writes its block of the function; the blocks tile the array; the run).
  The three frames are the generated ones (the reference's is its generated run with the result dropped); the idealization rewrote nothing, so
  there is nothing to preserve.
-/
import proofs.«115505_j63591285784838_2_alg».proof.Defs
import proofs.«115505_j63591285784838_2_alg».proof.Proof.Gen.Kernel
import proofs.«115505_j63591285784838_2_alg».proof.Proof.Gen.Kernel.Skeleton
import proofs.«115505_j63591285784838_2_alg».proof.Proof.Gen.Kernel.Launch
import proofs.«115505_j63591285784838_2_alg».proof.Proof.Gen.Kernel.Points
import proofs.«115505_j63591285784838_2_alg».proof.Proof.Gen.Kernel.Frame
import proofs.«115505_j63591285784838_2_alg».proof.Proof.Gen.KernelIdeal
import proofs.«115505_j63591285784838_2_alg».proof.Proof.Gen.KernelIdeal.Skeleton
import proofs.«115505_j63591285784838_2_alg».proof.Proof.Gen.KernelIdeal.Launch
import proofs.«115505_j63591285784838_2_alg».proof.Proof.Gen.KernelIdeal.Points
import proofs.«115505_j63591285784838_2_alg».proof.Proof.Gen.KernelIdeal.Frame
import proofs.«115505_j63591285784838_2_alg».proof.Proof.Gen.ReferenceIdeal
import proofs.«115505_j63591285784838_2_alg».proof.Proof.Gen.Pre_finite_inputs
import proofs.«115505_j63591285784838_2_alg».proof.Proof.Gen.KernelIdeal.Value
import proofs.«115505_j63591285784838_2_alg».proof.Proof.Gen.ReferenceIdeal.Run
import proofs.«115505_j63591285784838_2_alg».proof.Proof.Gen.ReferenceIdeal.Read
import proofs.«115505_j63591285784838_2_alg».proof.Proof.KernelRotary
import proofs.«115505_j63591285784838_2_alg».proof.Proof.RefRotary
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, cos and sin both programs end with the rotary embedding of those arrays in their result. -/
theorem algebraic : Cert.algebraic_KernelIdeal_ReferenceIdeal := by
  intro m ρ m' ρ' _ hagree
  refine ⟨fun c => Cert.Rotary.rotary (Cert.KernelIdeal.RotaryValue.xArg m c) (Cert.KernelIdeal.TablesAt.cosArg m c)
    (Cert.KernelIdeal.TablesAt.sinArg m c), Cert.KernelIdeal.RotaryValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.reference_is_rotary,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
